-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x8 : Shape := ⟨2, ![1024, 8]⟩
abbrev S64x1024x1024 : Shape := ⟨3, ![64, 1024, 1024]⟩
abbrev S64x1024x512 : Shape := ⟨3, ![64, 1024, 512]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn_part1 {F : FTy → Type} [FloatOps F] (main_v13 : IVec S_ 1) (main_v16 : IVec S64x1024x512 1) : IVec S_ 1 :=
  let main_c_5 : IVec S_ 1 := constantI S_ 1 1#1
  let main_v17 : IVec S_ 1 := (fun x v => Host.reduce IntOp.andi x v reducesTo_S64x1024x512_S_d0_1_2 h_S_) main_v16 main_c_5
  let main_v18 : IVec S_ 1 := andi main_v13 main_v17
  main_v18

def fn {F : FTy → Type} [FloatOps F] (main_arg0 : FVec F S1024x1024 .f32) (main_arg1 : IVec S1024x8 32) (main_arg2 : FVec F S1024x8 .f32) (main_arg3 : FVec F S64x1024x1024 .f32) (main_arg4 : FVec F S64x1024x512 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S64x1024x1024 .f32 := Host.absf main_arg3
  let main_cst_2 : FVec F S_ .f32 := constant S_ .f32 0x7F800000#32
  let main_v10 : FVec F S64x1024x1024 .f32 := broadcastInDim S64x1024x1024 ![] bcast_S_S64x1024x1024 main_cst_2
  let main_v11 : IVec S64x1024x1024 1 := cmpf .olt main_v9 main_v10
  let main_c_3 : IVec S_ 1 := constantI S_ 1 1#1
  let main_v12 : IVec S_ 1 := (fun x v => Host.reduce IntOp.andi x v reducesTo_S64x1024x1024_S_d0_1_2 h_S_) main_v11 main_c_3
  let main_v13 : IVec S_ 1 := andi main_v8 main_v12
  let main_v14 : FVec F S64x1024x512 .f32 := Host.absf main_arg4
  let main_cst_4 : FVec F S_ .f32 := constant S_ .f32 0x7F800000#32
  let main_v15 : FVec F S64x1024x512 .f32 := broadcastInDim S64x1024x512 ![] bcast_S_S64x1024x512 main_cst_4
  let main_v16 : IVec S64x1024x512 1 := cmpf .olt main_v14 main_v15
  fn_part1 (F := F) main_v13 main_v16
-- ==== Kernel.lean ====
abbrev S1024x1024 : Shape := ⟨2, ![1024, 1024]⟩
abbrev S1024x8 : Shape := ⟨2, ![1024, 8]⟩
abbrev S64x1024x1024 : Shape := ⟨3, ![64, 1024, 1024]⟩
abbrev S64x1024x512 : Shape := ⟨3, ![64, 1024, 512]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S1024x8x1024 : Shape := ⟨3, ![1024, 8, 1024]⟩
abbrev S8192x1024 : Shape := ⟨2, ![8192, 1024]⟩
abbrev S32768x1024 : Shape := ⟨2, ![32768, 1024]⟩
abbrev S64x512x1024 : Shape := ⟨3, ![64, 512, 1024]⟩
abbrev S1x512x1024 : Shape := ⟨3, ![1, 512, 1024]⟩
abbrev S1x1024x1024 : Shape := ⟨3, ![1, 1024, 1024]⟩
abbrev S1x1024x512 : Shape := ⟨3, ![1, 1024, 512]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 84
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x8, .i32⟩
  | .hbm, ⟨2, _⟩ => ⟨S1024x8, .f32⟩
  | .hbm, ⟨3, _⟩ => ⟨S64x1024x1024, .f32⟩
  | .hbm, ⟨4, _⟩ => ⟨S64x1024x512, .f32⟩
  | .hbm, ⟨5, _⟩ => ⟨S8192, .i32⟩
  | .hbm, ⟨6, _⟩ => ⟨S8192x1, .i32⟩
  | .hbm, ⟨7, _⟩ => ⟨S1x64, .i32⟩
  | .hbm, ⟨8, _⟩ => ⟨S8192x64, .i32⟩
  | .hbm, ⟨9, _⟩ => ⟨S8192x64, .i32⟩
  | .hbm, ⟨10, _⟩ => ⟨S8192x64, .i1⟩
  | .hbm, ⟨11, _⟩ => ⟨S8192x64, .i32⟩
  | .hbm, ⟨12, _⟩ => ⟨S_, .i32⟩
  | .hbm, ⟨13, _⟩ => ⟨S_, .i32⟩
  | .hbm, ⟨14, _⟩ => ⟨S8192x64, .i32⟩
  | .hbm, ⟨15, _⟩ => ⟨S_, .i32⟩
  | .hbm, ⟨16, _⟩ => ⟨S8192x64, .i32⟩
  | .hbm, ⟨17, _⟩ => ⟨S8192x64, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S1024x1024, .bf16⟩
  | .hbm, ⟨50, _⟩ => ⟨S1024x8x1024, .bf16⟩
  | .hbm, ⟨51, _⟩ => ⟨S8192x1024, .bf16⟩
  | .hbm, ⟨52, _⟩ => ⟨S_, .bf16⟩
  | .hbm, ⟨53, _⟩ => ⟨S32768x1024, .bf16⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S8192x1, .i32⟩
  | .hbm, ⟨62, _⟩ => ⟨S32768x1024, .bf16⟩
  | .hbm, ⟨63, _⟩ => ⟨S64x512x1024, .bf16⟩
  | .hbm, ⟨64, _⟩ => ⟨S64x1024x1024, .bf16⟩
  | .hbm, ⟨65, _⟩ => ⟨S64x1024x512, .bf16⟩
  | .hbm, ⟨66, _⟩ => ⟨S64x512x1024, .bf16⟩
  | .hbm, ⟨67, _⟩ => ⟨S32768x1024, .bf16⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S8192x1, .i32⟩
  | .hbm, ⟨76, _⟩ => ⟨S8192x1024, .bf16⟩
  | .hbm, ⟨77, _⟩ => ⟨S8192x1024, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S1024x8x1024, .f32⟩
  | .hbm, ⟨82, _⟩ => ⟨S_, .f32⟩
  | .hbm, ⟨83, _⟩ => ⟨S1024x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_call1_call0_c : Ref sig .tc := ⟨.hbm, 12, rfl⟩
abbrev main_call1_call0_v0 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_c_4 : Ref sig .tc := ⟨.hbm, 38, rfl⟩
abbrev main_call2_v14 : Ref sig .tc := ⟨.hbm, 39, rfl⟩
abbrev main_v6 : Ref sig .tc := ⟨.hbm, 40, rfl⟩
abbrev main_v7 : Ref sig .tc := ⟨.hbm, 41, rfl⟩
abbrev main_c_0 : Ref sig .tc := ⟨.hbm, 42, rfl⟩
abbrev main_v8 : Ref sig .tc := ⟨.hbm, 43, rfl⟩
abbrev main_v9 : Ref sig .tc := ⟨.hbm, 44, rfl⟩
abbrev main_c_1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst : Ref sig .tc := ⟨.hbm, 52, rfl⟩
abbrev main_v16 : Ref sig .tc := ⟨.hbm, 53, rfl⟩
abbrev main_c_2 : Ref sig .tc := ⟨.hbm, 54, rfl⟩
abbrev main_v17 : Ref sig .tc := ⟨.hbm, 55, rfl⟩
abbrev main_v18 : Ref sig .tc := ⟨.hbm, 56, rfl⟩
abbrev main_c_3 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_c_4 : Ref sig .tc := ⟨.hbm, 68, rfl⟩
abbrev main_v29 : Ref sig .tc := ⟨.hbm, 69, rfl⟩
abbrev main_v30 : Ref sig .tc := ⟨.hbm, 70, rfl⟩
abbrev main_c_5 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_6 : Ref sig .tc := ⟨.hbm, 82, rfl⟩
abbrev main_v41 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x8_S8192 : S1024x8.ShapeCasts S8192
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  natLt_1_32 : 1 < 32
  bcast_S_S_ : S_.BroadcastsInDim S_ (![] : Fin 0 → Fin S_.rank)
  reduceWindows_S8192x64_S8192x64_w8192s1p8191_0_w1s1p0_0 : S8192x64.ReduceWindows (![8192, 1] : Fin 2 → Nat) ![1, 1] ![8191, 0] ![0, 0] S8192x64
  h_S_ : 0 < S_.numel
  bcast_S_S8192x64 : S_.BroadcastsInDim S8192x64 (![] : Fin 0 → Fin S8192x64.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  bitsLt_bf16_f32 : FTy.bits .bf16 < FTy.bits .f32
  bcast_S1024x1024_S1024x8x1024_0_2 : S1024x1024.BroadcastsInDim S1024x8x1024 (![0, 2] : Fin 2 → Fin S1024x8x1024.rank)
  shapeCasts_S1024x8x1024_S8192x1024 : S1024x8x1024.ShapeCasts S8192x1024
  bcast_S_S32768x1024 : S_.BroadcastsInDim S32768x1024 (![] : Fin 0 → Fin S32768x1024.rank)
  shapeCasts_S32768x1024_S64x512x1024 : S32768x1024.ShapeCasts S64x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  transposes_S1024x1024_p1_0_S1024x1024 : S1024x1024.Transposes [1, 0] S1024x1024
  slices_S512x1024_o0_0_S512x512 : S512x1024.Slices ![0, 0] S512x512
  slices_S512x1024_o0_512_S512x512 : S512x1024.Slices ![0, 512] S512x512
  transposes_S1024x512_p1_0_S512x1024 : S1024x512.Transposes [1, 0] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  shapeCasts_S64x512x1024_S32768x1024 : S64x512x1024.ShapeCasts S32768x1024
  shapeCasts_S1024x8_S8192x1 : S1024x8.ShapeCasts S8192x1
  bcast_S8192x1_S8192x1024_0_1 : S8192x1.BroadcastsInDim S8192x1024 (![0, 1] : Fin 2 → Fin S8192x1024.rank)
  shapeCasts_S8192x1024_S1024x8x1024 : S8192x1024.ShapeCasts S1024x8x1024
  reducesTo_S1024x8x1024_S1024x1024_d1 : S1024x8x1024.ReducesTo [1] S1024x1024
  gather_S8192x64_S8192x1x1_S8192x1_n_1_0_0_1_2_11_wf : GatherDims.WF S8192x64 S8192x1x1 S8192x1 [] [1] [0] [1] [0] 2 ![1, 1]
  scatter_S32768x1024_S8192x1_S8192x1024_1_0_0_1_wf : ScatterDims.WF S32768x1024 S8192x1 S8192x1024 [1] [0] [0] 1
  dot_S512x1024_S1024x1024_S512x1024_1_0_0_1_n_n_wf : DotDims.WF S512x1024 S1024x1024 S512x1024 [1] [0] [0] [1] [] []
  dot_S512x512_S512x1024_S512x1024_1_0_0_1_n_n_wf : DotDims.WF S512x512 S512x1024 S512x1024 [1] [0] [0] [1] [] []
  gather_S32768x1024_S8192x1_S8192x1024_1_0_n_n_0_1_11024_wf : GatherDims.WF S32768x1024 S8192x1 S8192x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .bf16 = 32 ∨ (Rect.block (s := S64x512x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .bf16 = 32 ∨ (Rect.block (s := S64x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S64x1024x512.size a
  hwx0_2 : ∀ i : grid0.Coords, EltTy.bits .bf16 = 32 ∨ (Rect.block (s := S64x1024x512) S1x1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x512x1024.size a
  hwx0_3 : ∀ i : grid0.Coords, EltTy.bits .bf16 = 32 ∨ (Rect.block (s := S64x512x1024) S1x512x1024.size (cc0_transform_3 i) (hinb0_3 i)).WholeWords (EltTy.packing .bf16)

variable [Facts₀]

def gather_S8192x64_S8192x1x1_S8192x1_n_1_0_0_1_2_11 : GatherDims S8192x64 S8192x1x1 S8192x1 where
  offsetDims := []
  collapsedSliceDims := [1]
  operandBatchingDims := [0]
  startIndicesBatchingDims := [0]
  startIndexMap := [1]
  indexVectorDim := 2
  sliceSizes := ![1, 1]
  wf := gather_S8192x64_S8192x1x1_S8192x1_n_1_0_0_1_2_11_wf
def scatter_S32768x1024_S8192x1_S8192x1024_1_0_0_1 : ScatterDims S32768x1024 S8192x1 S8192x1024 where
  updateWindowDims := [1]
  insertedWindowDims := [0]
  scatterDimsToOperandDims := [0]
  indexVectorDim := 1
  wf := scatter_S32768x1024_S8192x1_S8192x1024_1_0_0_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def gather_S32768x1024_S8192x1_S8192x1024_1_0_n_n_0_1_11024 : GatherDims S32768x1024 S8192x1 S8192x1024 where
  offsetDims := [1]
  collapsedSliceDims := [0]
  operandBatchingDims := []
  startIndicesBatchingDims := []
  startIndexMap := [0]
  indexVectorDim := 1
  sliceSizes := ![1, 1024]
  wf := gather_S32768x1024_S8192x1_S8192x1024_1_0_n_n_0_1_11024_wf

abbrev win0_0 : Pipeline.Window sig grid0 :=
  Pipeline.Window.ofSpec (Memref.whole main_v24) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x8 : Shape := ⟨2, ![1024, 8]⟩
abbrev S64x1024x1024 : Shape := ⟨3, ![64, 1024, 1024]⟩
abbrev S64x1024x512 : Shape := ⟨3, ![64, 1024, 512]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S1024x8x1024 : Shape := ⟨3, ![1024, 8, 1024]⟩
abbrev S8192x1024 : Shape := ⟨2, ![8192, 1024]⟩
abbrev S32768x1024 : Shape := ⟨2, ![32768, 1024]⟩
abbrev S64x512x1024 : Shape := ⟨3, ![64, 512, 1024]⟩
abbrev S64x512x512 : Shape := ⟨3, ![64, 512, 512]⟩

abbrev nBuf : Space → Nat
  | .hbm => 93
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8, .i32⟩
  | .hbm, ⟨2, _⟩ => ⟨S1024x8, .f32⟩
  | .hbm, ⟨3, _⟩ => ⟨S64x1024x1024, .f32⟩
  | .hbm, ⟨4, _⟩ => ⟨S64x1024x512, .f32⟩
  | .hbm, ⟨5, _⟩ => ⟨S8192, .i32⟩
  | .hbm, ⟨6, _⟩ => ⟨S8192x1, .i32⟩
  | .hbm, ⟨7, _⟩ => ⟨S1x64, .i32⟩
  | .hbm, ⟨8, _⟩ => ⟨S8192x64, .i32⟩
  | .hbm, ⟨9, _⟩ => ⟨S8192x64, .i32⟩
  | .hbm, ⟨10, _⟩ => ⟨S8192x64, .i1⟩
  | .hbm, ⟨11, _⟩ => ⟨S8192x64, .i32⟩
  | .hbm, ⟨12, _⟩ => ⟨S_, .i32⟩
  | .hbm, ⟨13, _⟩ => ⟨S_, .i32⟩
  | .hbm, ⟨14, _⟩ => ⟨S8192x64, .i32⟩
  | .hbm, ⟨15, _⟩ => ⟨S_, .i32⟩
  | .hbm, ⟨16, _⟩ => ⟨S8192x64, .i32⟩
  | .hbm, ⟨17, _⟩ => ⟨S8192x64, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S1024x8x1024, .f32⟩
  | .hbm, ⟨50, _⟩ => ⟨S8192x1024, .f32⟩
  | .hbm, ⟨51, _⟩ => ⟨S_, .f32⟩
  | .hbm, ⟨52, _⟩ => ⟨S32768x1024, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192x1, .i32⟩
  | .hbm, ⟨61, _⟩ => ⟨S32768x1024, .f32⟩
  | .hbm, ⟨62, _⟩ => ⟨S64x512x1024, .f32⟩
  | .hbm, ⟨63, _⟩ => ⟨S64x512x1024, .f32⟩
  | .hbm, ⟨64, _⟩ => ⟨S64x512x512, .f32⟩
  | .hbm, ⟨65, _⟩ => ⟨S64x512x512, .f32⟩
  | .hbm, ⟨66, _⟩ => ⟨S64x512x512, .f32⟩
  | .hbm, ⟨67, _⟩ => ⟨S64x512x512, .f32⟩
  | .hbm, ⟨68, _⟩ => ⟨S_, .f32⟩
  | .hbm, ⟨69, _⟩ => ⟨S64x512x512, .f32⟩
  | .hbm, ⟨70, _⟩ => ⟨S64x512x512, .f32⟩
  | .hbm, ⟨71, _⟩ => ⟨S_, .f32⟩
  | .hbm, ⟨72, _⟩ => ⟨S64x512x512, .f32⟩
  | .hbm, ⟨73, _⟩ => ⟨S64x512x512, .f32⟩
  | .hbm, ⟨74, _⟩ => ⟨S64x512x512, .f32⟩
  | .hbm, ⟨75, _⟩ => ⟨S64x512x512, .f32⟩
  | .hbm, ⟨76, _⟩ => ⟨S64x512x1024, .f32⟩
  | .hbm, ⟨77, _⟩ => ⟨S32768x1024, .f32⟩
  | .hbm, ⟨78, _⟩ => ⟨S_, .i32⟩
  | .hbm, ⟨79, _⟩ => ⟨S8192, .i32⟩
  | .hbm, ⟨80, _⟩ => ⟨S8192, .i1⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .i32⟩
  | .hbm, ⟨85, _⟩ => ⟨S8192x1, .i32⟩
  | .hbm, ⟨86, _⟩ => ⟨S8192x1024, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S1024x8x1024, .f32⟩
  | .hbm, ⟨91, _⟩ => ⟨S_, .f32⟩
  | .hbm, ⟨92, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_call1_call0_c : Ref sig .tc := ⟨.hbm, 12, rfl⟩
abbrev main_call1_call0_v0 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_c_4 : Ref sig .tc := ⟨.hbm, 38, rfl⟩
abbrev main_call2_v14 : Ref sig .tc := ⟨.hbm, 39, rfl⟩
abbrev main_v6 : Ref sig .tc := ⟨.hbm, 40, rfl⟩
abbrev main_v7 : Ref sig .tc := ⟨.hbm, 41, rfl⟩
abbrev main_c_0 : Ref sig .tc := ⟨.hbm, 42, rfl⟩
abbrev main_v8 : Ref sig .tc := ⟨.hbm, 43, rfl⟩
abbrev main_v9 : Ref sig .tc := ⟨.hbm, 44, rfl⟩
abbrev main_c_1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_cst : Ref sig .tc := ⟨.hbm, 51, rfl⟩
abbrev main_v15 : Ref sig .tc := ⟨.hbm, 52, rfl⟩
abbrev main_c_2 : Ref sig .tc := ⟨.hbm, 53, rfl⟩
abbrev main_v16 : Ref sig .tc := ⟨.hbm, 54, rfl⟩
abbrev main_v17 : Ref sig .tc := ⟨.hbm, 55, rfl⟩
abbrev main_c_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_call3_v0 : Ref sig .tc := ⟨.hbm, 66, rfl⟩
abbrev main_call3_v1 : Ref sig .tc := ⟨.hbm, 67, rfl⟩
abbrev main_call3_cst : Ref sig .tc := ⟨.hbm, 68, rfl⟩
abbrev main_call3_v2 : Ref sig .tc := ⟨.hbm, 69, rfl⟩
abbrev main_call3_v3 : Ref sig .tc := ⟨.hbm, 70, rfl⟩
abbrev main_call3_cst_0 : Ref sig .tc := ⟨.hbm, 71, rfl⟩
abbrev main_call3_v4 : Ref sig .tc := ⟨.hbm, 72, rfl⟩
abbrev main_call3_v5 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_c_4 : Ref sig .tc := ⟨.hbm, 78, rfl⟩
abbrev main_v31 : Ref sig .tc := ⟨.hbm, 79, rfl⟩
abbrev main_v32 : Ref sig .tc := ⟨.hbm, 80, rfl⟩
abbrev main_c_5 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_6 : Ref sig .tc := ⟨.hbm, 91, rfl⟩
abbrev main_v42 : Ref sig .tc := ⟨.hbm, 92, rfl⟩

abbrev nD : Nat := 1
abbrev τ : Topo := Topo.v7x

variable {F : FTy → Type} [FloatOps F]

class Facts₀ : Prop where
  shapeCasts_S1024x8_S8192 : S1024x8.ShapeCasts S8192
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  natLt_1_32 : 1 < 32
  bcast_S_S_ : S_.BroadcastsInDim S_ (![] : Fin 0 → Fin S_.rank)
  reduceWindows_S8192x64_S8192x64_w8192s1p8191_0_w1s1p0_0 : S8192x64.ReduceWindows (![8192, 1] : Fin 2 → Nat) ![1, 1] ![8191, 0] ![0, 0] S8192x64
  h_S_ : 0 < S_.numel
  bcast_S_S8192x64 : S_.BroadcastsInDim S8192x64 (![] : Fin 0 → Fin S8192x64.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  bcast_S1024x1024_S1024x8x1024_0_2 : S1024x1024.BroadcastsInDim S1024x8x1024 (![0, 2] : Fin 2 → Fin S1024x8x1024.rank)
  shapeCasts_S1024x8x1024_S8192x1024 : S1024x8x1024.ShapeCasts S8192x1024
  bcast_S_S32768x1024 : S_.BroadcastsInDim S32768x1024 (![] : Fin 0 → Fin S32768x1024.rank)
  shapeCasts_S32768x1024_S64x512x1024 : S32768x1024.ShapeCasts S64x512x1024
  slices_S64x512x1024_S64x512x512_0_0_0 : S64x512x1024.Slices ![0, 0, 0] S64x512x512
  slices_S64x512x1024_S64x512x512_0_0_512 : S64x512x1024.Slices ![0, 0, 512] S64x512x512
  bcast_S_S64x512x512 : S_.BroadcastsInDim S64x512x512 (![] : Fin 0 → Fin S64x512x512.rank)
  shapeCasts_S64x512x1024_S32768x1024 : S64x512x1024.ShapeCasts S32768x1024
  shapeCasts_S1024x8_S8192x1 : S1024x8.ShapeCasts S8192x1
  bcast_S8192x1_S8192x1024_0_1 : S8192x1.BroadcastsInDim S8192x1024 (![0, 1] : Fin 2 → Fin S8192x1024.rank)
  shapeCasts_S8192x1024_S1024x8x1024 : S8192x1024.ShapeCasts S1024x8x1024
  reducesTo_S1024x8x1024_S1024x1024_d1 : S1024x8x1024.ReducesTo [1] S1024x1024
  gather_S8192x64_S8192x1x1_S8192x1_n_1_0_0_1_2_11_wf : GatherDims.WF S8192x64 S8192x1x1 S8192x1 [] [1] [0] [1] [0] 2 ![1, 1]
  scatter_S32768x1024_S8192x1_S8192x1024_1_0_0_1_wf : ScatterDims.WF S32768x1024 S8192x1 S8192x1024 [1] [0] [0] 1
  dot_S64x512x1024_S64x1024x1024_S64x512x1024_2_2_1_1_0_0_wf : DotDims.WF S64x512x1024 S64x1024x1024 S64x512x1024 [2] [2] [1] [1] [0] [0]
  dot_S64x512x512_S64x1024x512_S64x512x1024_2_2_1_1_0_0_wf : DotDims.WF S64x512x512 S64x1024x512 S64x512x1024 [2] [2] [1] [1] [0] [0]
  gather_S32768x1024_S8192x1_S8192x1024_1_0_n_n_0_1_11024_wf : GatherDims.WF S32768x1024 S8192x1 S8192x1024 [1] [0] [] [0] [] 1 ![1, 1024]

variable [Facts₀]

def gather_S8192x64_S8192x1x1_S8192x1_n_1_0_0_1_2_11 : GatherDims S8192x64 S8192x1x1 S8192x1 where
  offsetDims := []
  collapsedSliceDims := [1]
  operandBatchingDims := [0]
  startIndicesBatchingDims := [0]
  startIndexMap := [1]
  indexVectorDim := 2
  sliceSizes := ![1, 1]
  wf := gather_S8192x64_S8192x1x1_S8192x1_n_1_0_0_1_2_11_wf
def scatter_S32768x1024_S8192x1_S8192x1024_1_0_0_1 : ScatterDims S32768x1024 S8192x1 S8192x1024 where
  updateWindowDims := [1]
  insertedWindowDims := [0]
  scatterDimsToOperandDims := [0]
  indexVectorDim := 1
  wf := scatter_S32768x1024_S8192x1_S8192x1024_1_0_0_1_wf
def dot_S64x512x1024_S64x1024x1024_S64x512x1024_2_2_1_1_0_0 : DotDims S64x512x1024 S64x1024x1024 S64x512x1024 where
  lhsContracting := [2]
  rhsContracting := [2]
  lhsNonContracting := [1]
  rhsNonContracting := [1]
  lhsBatch := [0]
  rhsBatch := [0]
  wf := dot_S64x512x1024_S64x1024x1024_S64x512x1024_2_2_1_1_0_0_wf
def dot_S64x512x512_S64x1024x512_S64x512x1024_2_2_1_1_0_0 : DotDims S64x512x512 S64x1024x512 S64x512x1024 where
  lhsContracting := [2]
  rhsContracting := [2]
  lhsNonContracting := [1]
  rhsNonContracting := [1]
  lhsBatch := [0]
  rhsBatch := [0]
  wf := dot_S64x512x512_S64x1024x512_S64x512x1024_2_2_1_1_0_0_wf
def gather_S32768x1024_S8192x1_S8192x1024_1_0_n_n_0_1_11024 : GatherDims S32768x1024 S8192x1 S8192x1024 where
  offsetDims := [1]
  collapsedSliceDims := [0]
  operandBatchingDims := []
  startIndicesBatchingDims := []
  startIndexMap := [0]
  indexVectorDim := 1
  sliceSizes := ![1, 1024]
  wf := gather_S32768x1024_S8192x1_S8192x1024_1_0_n_n_0_1_11024_wf

class Facts : Prop extends Facts₀ where

variable [Facts]
-- ==== Proof.MoeSpec.lean ====
/-
  The two float stages that the kernel's program and the reference share as mathematics, each stated once
  as a function of whole arrays over the extended reals.

  `mlp xd gu dn` is the per-expert gated MLP: for expert e, slot c and output column h,
      yd[e,c,h] = Σ_i (g · (1 / (1 + exp (-g))) · u) · dn[e,h,i],
      g = Σ_k xd[e,c,k] · gu[e,i,k],   u = Σ_k xd[e,c,k] · gu[e,512+i,k]
  (one contraction against the gate/up weights, the product of the SiLU of the first half with the second
  half, one contraction against the down weights).

  `combine y slot w` gathers row slot[p] of the flattened [64·512, 1024] array for each (token, choice)
  pair p, scales it by the pair's routing weight and sums the eight choices of every token.
-/
import proofs.«128541_j11802570129921_2_alg».proof.ReferenceIdeal
import Idealize.ShloMosaic.PureOps.Ideal

noncomputable section

namespace Cert.Moe

open Idealize.ShloMosaic Cert.ReferenceIdeal Cert.ReferenceIdeal.Facts₀ Cert.ReferenceIdeal.Facts

variable [Cert.ReferenceIdeal.Facts]

/-- The gated MLP of every expert on its dispatched rows. -/
def mlp (xd : FVec Ideal S64x512x1024 .f32) (gu : FVec Ideal S64x1024x1024 .f32) (dn : FVec Ideal S64x1024x512 .f32) :
    FVec Ideal S64x512x1024 .f32 :=
  have v24 : FVec Ideal S64x512x1024 .f32 := Host.dotGeneral dot_S64x512x1024_S64x1024x1024_S64x512x1024_2_2_1_1_0_0 none xd gu
  have v25 : FVec Ideal S64x512x512 .f32 := extractStridedSlice S64x512x512 ![0, 0, 0] v24 slices_S64x512x1024_S64x512x512_0_0_0
  have v26 : FVec Ideal S64x512x512 .f32 := extractStridedSlice S64x512x512 ![0, 0, 512] v24 slices_S64x512x1024_S64x512x512_0_0_512
  have s0 : FVec Ideal S64x512x512 .f32 := Host.negf v25
  have s1 : FVec Ideal S64x512x512 .f32 := Host.exp s0
  have s2 : FVec Ideal S64x512x512 .f32 := broadcastInDim S64x512x512 ![] bcast_S_S64x512x512 (constant (F := Ideal) S_ .f32 0x3F800000#32)
  have s3 : FVec Ideal S64x512x512 .f32 := addf s2 s1
  have s4 : FVec Ideal S64x512x512 .f32 := broadcastInDim S64x512x512 ![] bcast_S_S64x512x512 (constant (F := Ideal) S_ .f32 0x3F800000#32)
  have s5 : FVec Ideal S64x512x512 .f32 := Host.divf s4 s3
  have v27 : FVec Ideal S64x512x512 .f32 := mulf v25 s5
  have v28 : FVec Ideal S64x512x512 .f32 := mulf v27 v26
  Host.dotGeneral dot_S64x512x512_S64x1024x512_S64x512x1024_2_2_1_1_0_0 none v28 dn

/-- Rows gathered back per (token, choice) pair, weighted, and summed over the eight choices of a token. -/
def combine (y : FVec Ideal S64x512x1024 .f32) (slot : IVec S8192 32) (w : FVec Ideal S1024x8 .f32) :
    FVec Ideal S1024x1024 .f32 :=
  have v30 : FVec Ideal S32768x1024 .f32 := shapeCast S32768x1024 y shapeCasts_S64x512x1024_S32768x1024
  have v31 : IVec S8192 32 := broadcastInDim S8192 ![] bcast_S_S8192 (constantI S_ 32 0#32)
  have v32 : IVec S8192 1 := cmpi .slt slot v31
  have v33 : IVec S8192 32 := broadcastInDim S8192 ![] bcast_S_S8192 (constantI S_ 32 32768#32)
  have v34 : IVec S8192 32 := addi slot v33
  have v35 : IVec S8192 32 := select v32 v34 slot
  have v36 : IVec S8192x1 32 := broadcastInDim S8192x1 ![0] bcast_S8192_S8192x1_0 v35
  have v37 : FVec Ideal S8192x1024 .f32 := Host.gather gather_S32768x1024_S8192x1_S8192x1024_1_0_n_n_0_1_11024 v30 v36
  have v38 : FVec Ideal S8192x1 .f32 := shapeCast S8192x1 w shapeCasts_S1024x8_S8192x1
  have v39 : FVec Ideal S8192x1024 .f32 := broadcastInDim S8192x1024 ![0, 1] bcast_S8192x1_S8192x1024_0_1 v38
  have v40 : FVec Ideal S8192x1024 .f32 := mulf v37 v39
  have v41 : FVec Ideal S1024x8x1024 .f32 := shapeCast S1024x8x1024 v40 shapeCasts_S8192x1024_S1024x8x1024
  Host.reduceAdd v41 (constant (F := Ideal) S_ .f32 0x00000000#32) reducesTo_S1024x8x1024_S1024x1024_d1 h_S_

end Cert.Moe

end
-- ==== Proof.MlpContract.lean ====
/-
  Two index lemmas for the host side of a gated MLP, at the ideal values.

  A batched contraction over the LAST axis of both operands: for a stack of G left matrices [M, K] and a stack of G
  right matrices [N, K], the dimension numbers that pair the leading axes and contract the last axis of each give,
  at (g, r, c), the sum over k of the left member's row r times the right member's ROW c (the right member enters
  transposed).

  A rank-3 array cut along its last axis from column `o`: at (a, b, j) it reads the source at (a, b, o + j).
-/
import Idealize.ShloMosaic.Lib.ValueIdx
import Idealize.ShloMosaic.Lib.Pipeline.Value
import Idealize.ShloMosaic.PureOps.Ideal.Laws

noncomputable section

namespace Cert.Moe

open Idealize.ShloMosaic Idealize.ShloMosaic.ValueIdx
open scoped BigOperators

/-- The host's batched `dot_general` contracting the last axis of both operands, at `(g, r, c)`. -/
theorem dotGeneral_batchLast_apply {G M N K : ℕ} {φ₁ φ₂ : FTy}
    (w : DotDims.WF ⟨3, ![G, M, K]⟩ ⟨3, ![G, N, K]⟩ ⟨3, ![G, M, N]⟩ [2] [2] [1] [1] [0] [0])
    (prec : Option ContractPrecision) (A : FVec Ideal ⟨3, ![G, M, K]⟩ φ₁) (B : FVec Ideal ⟨3, ![G, N, K]⟩ φ₂)
    (g : Fin G) (r : Fin M) (c : Fin N) :
    Host.dotGeneral (⟨[2], [2], [1], [1], [0], [0], w⟩ : DotDims _ _ _) prec A B (ix3 g r c)
      = ∑ k : Fin K, A (ix3 g r k) * B (ix3 g c k) := by
  show FloatOps.dotGeneral _ prec _ A B (ix3 g r c) = _
  rw [Ideal.dotGeneral_apply,
    ← Equiv.sum_comp (contrEquiv1 (⟨[2], [2], [1], [1], [0], [0], w⟩ : DotDims _ _ _) K rfl rfl).symm]
  refine Finset.sum_congr rfl fun k _ => ?_
  have c3 := contrEquiv1_symm_val
    (⟨[2], [2], [1], [1], [0], [0], w⟩ : DotDims ⟨3, ![G, M, K]⟩ ⟨3, ![G, N, K]⟩ ⟨3, ![G, M, N]⟩) K rfl rfl k
  have l3 : (⟨[2], [2], [1], [1], [0], [0], w⟩ : DotDims ⟨3, ![G, M, K]⟩ ⟨3, ![G, N, K]⟩ ⟨3, ![G, M, N]⟩).lhsIdx (ix3 g r c)
      ((contrEquiv1 _ K rfl rfl).symm k) = ix3 g r k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, M, K]⟩ ⟨3, ![G, N, K]⟩ ⟨3, ![G, M, N]⟩).rhsIdx (ix3 g r c)
      ((contrEquiv1 _ K rfl rfl).symm k) = ix3 g c k := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

variable {α : Type}

/-- A rank-3 array cut along axis 2 from `o` reads, at `(a, b, j)`, the source at `(a, b, k)` with `k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.Moe

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.MlpBlock.lean ====
/-
  The per-expert block of the mixture-of-experts layer: the value the kernel body stores, read at (0, p, q), is
  the specification's gated MLP at the expert's rows, (e, p, q).

  Both sides are
      Σ_{i<512} ( G_i · (1 / (1 + exp (-G_i))) · U_i ) · dn[e, q, i],
      G_i = Σ_{k<1024} xd[e, p, k] · gu[e, i, k],    U_i = Σ_{k<1024} xd[e, p, k] · gu[e, 512 + i, k].
  The kernel body gets there by dropping the unit axis of its three blocks, transposing the weight blocks and taking
  two plain matrix products into a zero accumulator; the specification by two batched contractions over the last
  axis of both operands. Each contraction is re-indexed to a sum over `Fin 1024` or `Fin 512`; the factors come in
  the same order on both sides, so no algebraic law is used. The changes of float format are the identity on
  extended reals, and the logistic function is by definition 1 / (1 + exp (-x)).
-/
import proofs.«128541_j11802570129921_2_alg».proof.Proof.Gen.KernelIdeal.Skeleton
import proofs.«128541_j11802570129921_2_alg».proof.Proof.MoeSpec
import proofs.«128541_j11802570129921_2_alg».proof.Proof.MlpContract
import proofs.«128541_j11802570129921_2_alg».proof.Proof.LibDenseRows
import Idealize.ShloMosaic.Lib.ValueIdx
import Idealize.ShloMosaic.Lib.ValueLayout
import Idealize.ShloMosaic.PureOps.IdealRules

noncomputable section

namespace Cert.Moe

open Idealize.ShloMosaic Idealize.ShloMosaic.ValueIdx
open scoped BigOperators

/-- Column `i` of the first half of the 1024 columns of the gate/up product. -/
def lo (i : Fin 512) : Fin 1024 := ⟨i.val, by have := i.isLt; omega⟩
/-- Column `512 + i`, in the second half. -/
def hi (i : Fin 512) : Fin 1024 := ⟨512 + i.val, by have := i.isLt; omega⟩

/-- The gated activation of one entry: `g · logistic g · u`. -/
def act (g u : EReal) : EReal := g * Ideal.logistic g * u

/-! ## The kernel body's side -/

section Kernel

open Cert.KernelIdeal Cert.KernelIdeal.Gen

/-- The body's first product, rows of the token block against rows of the gate/up block, at `(p, o)`. -/
theorem kernel_gateUp_apply (x0 : FVec Ideal S1x512x1024 .bf16) (x1 : FVec Ideal S1x1024x1024 .bf16)
    (p : Fin 512) (o : Fin 1024) :
    matmul dot_S512x1024_S1024x1024_S512x1024_1_0_0_1_n_n none
        (shapeCast S512x1024 x0 shapeCasts_S1x512x1024_S512x1024)
        (transpose S1024x1024 [1, 0] (shapeCast S1024x1024 x1 shapeCasts_S1x1024x1024_S1024x1024)
          transposes_S1024x1024_p1_0_S1024x1024)
        (constant (F := Ideal) S512x1024 .f32 0x00000000#32) (ix2 p o)
      = ∑ k : Fin 1024, x0 (ix3 (0 : Fin 1) p k) * x1 (ix3 (0 : Fin 1) o k) := by
  refine (Cert.DenseRows.matmul_zero_plain_apply dot_S512x1024_S1024x1024_S512x1024_1_0_0_1_n_n rfl rfl rfl rfl
    (fun j k => ?_) (fun j k => ?_) _ _ p o).trans ?_
  · simp [DotDims.lhsIdx, dot_S512x1024_S1024x1024_S512x1024_1_0_0_1_n_n]; rfl
  · simp [DotDims.rhsIdx, dot_S512x1024_S1024x1024_S512x1024_1_0_0_1_n_n]; rfl
  · exact Finset.sum_congr rfl fun k _ => congrArg₂ (· * ·) (shapeCast_1ab_ab_apply x0 _ p k)
      ((transpose_ix2_apply _ _ k o).trans (shapeCast_1ab_ab_apply x1 _ o k))

/-- The body's second product, an activation block against rows of the down block, at `(p, q)`. -/
theorem kernel_down_apply (A : FVec Ideal S512x512 .bf16) (x2 : FVec Ideal S1x1024x512 .bf16)
    (p : Fin 512) (q : Fin 1024) :
    matmul dot_S512x512_S512x1024_S512x1024_1_0_0_1_n_n none A
        (transpose S512x1024 [1, 0] (shapeCast S1024x512 x2 shapeCasts_S1x1024x512_S1024x512)
          transposes_S1024x512_p1_0_S512x1024)
        (constant (F := Ideal) S512x1024 .f32 0x00000000#32) (ix2 p q)
      = ∑ i : Fin 512, A (ix2 p i) * x2 (ix3 (0 : Fin 1) q i) := by
  refine (Cert.DenseRows.matmul_zero_plain_apply dot_S512x512_S512x1024_S512x1024_1_0_0_1_n_n rfl rfl rfl rfl
    (fun j k => ?_) (fun j k => ?_) _ _ p q).trans ?_
  · simp [DotDims.lhsIdx, dot_S512x512_S512x1024_S512x1024_1_0_0_1_n_n]; rfl
  · simp [DotDims.rhsIdx, dot_S512x512_S512x1024_S512x1024_1_0_0_1_n_n]; rfl
  · exact Finset.sum_congr rfl fun i _ => congrArg (A (ix2 p i) * ·)
      ((transpose_ix2_apply _ _ i q).trans (shapeCast_1ab_ab_apply x2 _ q i))

/-- The body's pointwise middle over any product block `P`: the two column halves, the logistic function, two
    products and the change of format, at `(p, i)`. -/
theorem kernel_act_apply (P : FVec Ideal S512x1024 .f32) (p i : Fin 512) :
    (truncf .bf16
        (mulf (mulf (extractStridedSlice S512x512 ![0, 0] P slices_S512x1024_o0_0_S512x512)
            (logistic (extractStridedSlice S512x512 ![0, 0] P slices_S512x1024_o0_0_S512x512)))
          (extractStridedSlice S512x512 ![0, 512] P slices_S512x1024_o0_512_S512x512))
        bitsLt_bf16_f32 : FVec Ideal S512x512 .bf16) (ix2 p i)
      = act (P (ix2 p (lo i))) (P (ix2 p (hi i))) := by
  have e0 := slice2_axis1_apply 0 P slices_S512x1024_o0_0_S512x512 p i (lo i) (Nat.zero_add _).symm
  have e1 := slice2_axis1_apply 512 P slices_S512x1024_o0_512_S512x512 p i (hi i) rfl
  show extractStridedSlice _ _ P _ (ix2 p i) * Ideal.logistic (extractStridedSlice _ _ P _ (ix2 p i))
      * extractStridedSlice _ _ P _ (ix2 p i) = _
  rw [e0, e1]
  rfl

end Kernel

/-! ## The specification's side -/

section Reference

variable [Cert.ReferenceIdeal.Facts]

open Cert.ReferenceIdeal Cert.ReferenceIdeal.Facts₀ Cert.ReferenceIdeal.Facts

/-- The specification's first contraction at `(e, p, o)`. -/
theorem ref_gateUp_apply (xd : FVec Ideal S64x512x1024 .f32) (gu : FVec Ideal S64x1024x1024 .f32)
    (e : Fin 64) (p : Fin 512) (o : Fin 1024) :
    Host.dotGeneral dot_S64x512x1024_S64x1024x1024_S64x512x1024_2_2_1_1_0_0 none xd gu (ix3 e p o)
      = ∑ k : Fin 1024, xd (ix3 e p k) * gu (ix3 e o k) :=
  dotGeneral_batchLast_apply _ none xd gu e p o

/-- The specification's second contraction at `(e, p, q)`. -/
theorem ref_down_apply (A : FVec Ideal S64x512x512 .f32) (dn : FVec Ideal S64x1024x512 .f32)
    (e : Fin 64) (p : Fin 512) (q : Fin 1024) :
    Host.dotGeneral dot_S64x512x512_S64x1024x512_S64x512x1024_2_2_1_1_0_0 none A dn (ix3 e p q)
      = ∑ i : Fin 512, A (ix3 e p i) * dn (ix3 e q i) :=
  dotGeneral_batchLast_apply _ none A dn e p q

/-- The specification's pointwise middle over any product array `R`: the two column halves, `1 / (1 + exp (-g))`
    spelt with the host's operations, and two products, at `(e, p, i)`. -/
theorem ref_act_apply (R : FVec Ideal S64x512x1024 .f32) (e : Fin 64) (p i : Fin 512) :
    mulf
        (mulf (extractStridedSlice S64x512x512 ![0, 0, 0] R slices_S64x512x1024_S64x512x512_0_0_0)
          (Host.divf (F := Ideal)
            (broadcastInDim S64x512x512 ![] bcast_S_S64x512x512 (constant (F := Ideal) S_ .f32 0x3F800000#32))
            (addf (broadcastInDim S64x512x512 ![] bcast_S_S64x512x512 (constant (F := Ideal) S_ .f32 0x3F800000#32))
              (Host.exp (Host.negf (extractStridedSlice S64x512x512 ![0, 0, 0] R slices_S64x512x1024_S64x512x512_0_0_0))))))
        (extractStridedSlice S64x512x512 ![0, 0, 512] R slices_S64x512x1024_S64x512x512_0_0_512) (ix3 e p i)
      = act (R (ix3 e p (lo i))) (R (ix3 e p (hi i))) := by
  have e0 := slice3_axis2_apply 0 R slices_S64x512x1024_S64x512x512_0_0_0 e p i (lo i) (Nat.zero_add _).symm
  have e1 := slice3_axis2_apply 512 R slices_S64x512x1024_S64x512x512_0_0_512 e p i (hi i) rfl
  have one : Ideal.ofBits .f32 0x3F800000#32 = 1 := IdealRules.sign_bit.ideal_onePat .f32
  show extractStridedSlice _ _ R _ (ix3 e p i)
        * Ideal.div (Ideal.ofBits .f32 0x3F800000#32)
            (Ideal.ofBits .f32 0x3F800000#32 + Ideal.exp (-(extractStridedSlice _ _ R _ (ix3 e p i))))
      * extractStridedSlice _ _ R _ (ix3 e p i) = _
  rw [e0, e1, one]
  rfl

end Reference

/-! ## The block -/

/-- The value the kernel body stores for expert `e`, at `(0, p, q)`, is the gated MLP of the specification at
    `(e, p, q)`, given that the three loaded blocks are the expert's rows of the three arrays. -/
theorem pay_eq_mlp [Cert.KernelIdeal.Facts] [Cert.ReferenceIdeal.Facts]
    (x0 : Vec Ideal Cert.KernelIdeal.S1x512x1024 .bf16) (x1 : Vec Ideal Cert.KernelIdeal.S1x1024x1024 .bf16) (x2 : Vec Ideal Cert.KernelIdeal.S1x1024x512 .bf16)
    (xd : FVec Ideal Cert.ReferenceIdeal.S64x512x1024 .f32) (gu : FVec Ideal Cert.ReferenceIdeal.S64x1024x1024 .f32) (dn : FVec Ideal Cert.ReferenceIdeal.S64x1024x512 .f32)
    (e : Fin 64)
    (h0 : ∀ (p : Fin 512) (k : Fin 1024), x0 (ix3 (0 : Fin 1) p k) = xd (ix3 e p k))
    (h1 : ∀ (o : Fin 1024) (k : Fin 1024), x1 (ix3 (0 : Fin 1) o k) = gu (ix3 e o k))
    (h2 : ∀ (h : Fin 1024) (i : Fin 512), x2 (ix3 (0 : Fin 1) h i) = dn (ix3 e h i))
    (p : Fin 512) (q : Fin 1024) :
    Cert.KernelIdeal.Gen.k0_pay1 (F := Ideal) x0 x1 x2 (ix3 (0 : Fin 1) p q) = Cert.Moe.mlp xd gu dn (ix3 e p q) := by
  -- the two first products agree entry by entry
  have hG : ∀ o : Fin 1024,
      matmul Cert.KernelIdeal.dot_S512x1024_S1024x1024_S512x1024_1_0_0_1_n_n none
          (shapeCast Cert.KernelIdeal.S512x1024 x0 Cert.KernelIdeal.Gen.shapeCasts_S1x512x1024_S512x1024)
          (transpose Cert.KernelIdeal.S1024x1024 [1, 0]
            (shapeCast Cert.KernelIdeal.S1024x1024 x1 Cert.KernelIdeal.Gen.shapeCasts_S1x1024x1024_S1024x1024)
            Cert.KernelIdeal.Gen.transposes_S1024x1024_p1_0_S1024x1024)
          (constant (F := Ideal) Cert.KernelIdeal.S512x1024 .f32 0x00000000#32) (ix2 p o)
        = Host.dotGeneral Cert.ReferenceIdeal.dot_S64x512x1024_S64x1024x1024_S64x512x1024_2_2_1_1_0_0 none xd gu (ix3 e p o) :=
    fun o => ((kernel_gateUp_apply x0 x1 p o).trans
      (Finset.sum_congr rfl fun k _ => by rw [h0 p k, h1 o k])).trans (ref_gateUp_apply xd gu e p o).symm
  unfold Cert.KernelIdeal.Gen.k0_pay1 Cert.Moe.mlp
  refine (shapeCast_ab_1ab_apply _ _ (0 : Fin 1) p q).trans ?_
  refine (truncf_apply (ψ := .bf16) _ Cert.KernelIdeal.Gen.bitsLt_bf16_f32 (ix2 p q)).trans ?_
  refine (kernel_down_apply _ x2 p q).trans ?_
  refine Eq.trans ?_ (ref_down_apply _ dn e p q).symm
  refine Finset.sum_congr rfl fun i _ => ?_
  refine congrArg₂ (· * ·) ?_ (h2 q i)
  refine (kernel_act_apply _ p i).trans (Eq.trans ?_ (ref_act_apply _ e p i).symm)
  rw [hG (lo i), hG (hi i)]

end Cert.Moe

end
-- ==== Proof.KHost.lean ====
/-
  What the region finds in the two weight arrays it stages: each is the corresponding argument array, the
  rounding to bf16 on the way in being the identity on extended reals.
-/
import proofs.«128541_j11802570129921_2_alg».proof.Proof.Gen.KernelIdeal.Frame
import Idealize.ShloMosaic.Lib.StableHlo.Run
import Idealize.ShloMosaic.PureOps.Ideal

noncomputable section

namespace Cert.Moe.K

open Idealize.ShloMosaic Idealize.ShloMosaic.TcCoe Idealize.SL.Sem Idealize.ShloMosaic.StableHlo
open Cert.KernelIdeal Cert.KernelIdeal.Gen

variable [Cert.KernelIdeal.Facts]
variable (m : (ℓ : Loc nD τ sig) → Buf (Elt Ideal) ℓ)

/-- Rounding to a narrower format does nothing to an array of extended reals. -/
theorem truncf_id {s : Shape} {φ ψ : FTy} (x : FVec Ideal s φ) (h : ψ.bits < φ.bits) : (truncf ψ x h : s.Idx → EReal) = x := rfl

/-- The gate/up weights as the region finds them are the argument array. -/
theorem V_gu (c : Dev nD) : (V (F := Ideal) m c main_v25 : S64x1024x1024.Idx → EReal) = m ((c : Thread nD τ).loc main_arg3) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl

/-- The down weights as the region finds them are the argument array. -/
theorem V_dn (c : Dev nD) : (V (F := Ideal) m c main_v26 : S64x1024x512.Idx → EReal) = m ((c : Thread nD τ).loc main_arg4) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl

end Cert.Moe.K

end
-- ==== Proof.KRegion.lean ====
/-
  The region's result array after the run is the gated MLP of the whole arrays the region finds.

  The grid has one point per expert; at point t every window's block is slab t along the expert axis and whole
  along the other two (`idx_facts`), so a block read from any array A is A at (t, ·, ·) (`blk0_read` …). What point t
  writes back is therefore expert t's slab of `mlp` of the three arrays (`point_eq`, from the block mathematics),
  the sixty-four slabs cover the result array (`cover`), and the array ends holding `mlp` of them (`final`).
  Two of the three arrays are the weight arguments themselves, rounding being the identity on extended reals.
-/
import proofs.«128541_j11802570129921_2_alg».proof.Proof.Gen.KernelIdeal.Frame
import proofs.«128541_j11802570129921_2_alg».proof.Proof.Gen.ReferenceIdeal
import proofs.«128541_j11802570129921_2_alg».proof.Proof.MoeSpec
import proofs.«128541_j11802570129921_2_alg».proof.Proof.MlpBlock
import proofs.«128541_j11802570129921_2_alg».proof.Proof.KHost
import Idealize.ShloMosaic.Lib.Pipeline.Value
import Idealize.ShloMosaic.Lib.ValueIdx
import Idealize.ShloMosaic.Lib.Tactic

noncomputable section

namespace Cert.Moe.K

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem hz3 : (![0, 0, 0] : Fin 3 → Nat) = fun _ => 0 := funext fun a => by fin_cases a <;> rfl

/-- The grid has one point per expert. -/
theorem N64 : cfg0.N = 64 := N_0

/-- The expert a grid point works on. -/
abbrev ex (t : Fin cfg0.N) : Fin 64 := ⟨t.val, by have h := t.isLt; have h64 := N64; omega⟩

/-- Every window's block at point `t` is slab `t` along the expert axis, whole along the other two. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- Block `t` of the dispatched-rows window, read from any array `A`, is expert `t`'s rows of `A`. -/
theorem blk0_read (A : S64x512x1024.Idx → EReal) (t : Fin cfg0.N) (p : Fin 512) (k : Fin 1024) :
    (((cfg0.win 0).blk t).view.read (Elt Ideal) A : S1x512x1024.Idx → EReal) (ix3 (0 : Fin 1) p k) = A (ix3 (ex t) p k) := by
  obtain ⟨⟨e0, e1, e2⟩, -, -, -⟩ := idx_facts t
  show A (((cfg0.win 0).blk t).view.emb (ix3 (0 : Fin 1) p k)) = A (ix3 (ex t) p k)
  refine congrArg A ?_
  funext a
  apply Fin.ext
  match a with
  | ⟨0, _⟩ => show win0_0.index t (0 : Fin 3) * 1 + 1 * 0 = t.val; omega
  | ⟨1, _⟩ => show win0_0.index t (1 : Fin 3) * 512 + 1 * p.val = p.val; omega
  | ⟨2, _⟩ => show win0_0.index t (2 : Fin 3) * 1024 + 1 * k.val = k.val; omega

/-- Block `t` of the gate/up window, read from any array `A`, is expert `t`'s matrix of `A`. -/
theorem blk1_read (A : S64x1024x1024.Idx → EReal) (t : Fin cfg0.N) (o : Fin 1024) (k : Fin 1024) :
    (((cfg0.win 1).blk t).view.read (Elt Ideal) A : S1x1024x1024.Idx → EReal) (ix3 (0 : Fin 1) o k) = A (ix3 (ex t) o k) := by
  obtain ⟨-, ⟨e0, e1, e2⟩, -, -⟩ := idx_facts t
  show A (((cfg0.win 1).blk t).view.emb (ix3 (0 : Fin 1) o k)) = A (ix3 (ex t) o k)
  refine congrArg A ?_
  funext a
  apply Fin.ext
  match a with
  | ⟨0, _⟩ => show win0_1.index t (0 : Fin 3) * 1 + 1 * 0 = t.val; omega
  | ⟨1, _⟩ => show win0_1.index t (1 : Fin 3) * 1024 + 1 * o.val = o.val; omega
  | ⟨2, _⟩ => show win0_1.index t (2 : Fin 3) * 1024 + 1 * k.val = k.val; omega

/-- Block `t` of the down window, read from any array `A`, is expert `t`'s matrix of `A`. -/
theorem blk2_read (A : S64x1024x512.Idx → EReal) (t : Fin cfg0.N) (h : Fin 1024) (i : Fin 512) :
    (((cfg0.win 2).blk t).view.read (Elt Ideal) A : S1x1024x512.Idx → EReal) (ix3 (0 : Fin 1) h i) = A (ix3 (ex t) h i) := by
  obtain ⟨-, -, ⟨e0, e1, e2⟩, -⟩ := idx_facts t
  show A (((cfg0.win 2).blk t).view.emb (ix3 (0 : Fin 1) h i)) = A (ix3 (ex t) h i)
  refine congrArg A ?_
  funext a
  apply Fin.ext
  match a with
  | ⟨0, _⟩ => show win0_2.index t (0 : Fin 3) * 1 + 1 * 0 = t.val; omega
  | ⟨1, _⟩ => show win0_2.index t (1 : Fin 3) * 1024 + 1 * h.val = h.val; omega
  | ⟨2, _⟩ => show win0_2.index t (2 : Fin 3) * 512 + 1 * i.val = i.val; omega

/-- What the body leaves at point `t`, cut to the transfer's size, from blocks of ANY three arrays: expert
    `t`'s slab of the MLP of those arrays. -/
theorem point_eq (A0 : S64x512x1024.Idx → EReal) (A1 : S64x1024x1024.Idx → EReal) (A2 : S64x1024x512.Idx → EReal) (t : Fin cfg0.N) :
    (cfg0.win 3).cut (grid0.coords t)
        (out0_3 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (Cert.Moe.mlp A0 A1 A2) := by
  obtain ⟨-, -, -, ⟨e0, e1, e2⟩⟩ := idx_facts t
  unfold out0_3
  rw [View.canon_unit_zero hz3]
  simp only [View.ld_unit_zero (S := S1x512x1024) hz3, View.ld_unit_zero (S := S1x1024x1024) hz3, View.ld_unit_zero (S := S1x1024x512) hz3]
  funext y
  obtain ⟨a, p, q, rfl⟩ : ∃ (a : Fin 1) (p : Fin 512) (q : Fin 1024), y = ix3 a p q := ⟨y 0, y 1, y 2, eq_ix3 y⟩
  obtain rfl : a = 0 := Subsingleton.elim _ _
  show k0_pay1 (F := Ideal) (((cfg0.win 0).blk t).view.read (Elt Ideal) A0) (((cfg0.win 1).blk t).view.read (Elt Ideal) A1)
      (((cfg0.win 2).blk t).view.read (Elt Ideal) A2) (ix3 (0 : Fin 1) p q)
    = Cert.Moe.mlp A0 A1 A2 (((cfg0.win 3).blk t).view.emb (ix3 (0 : Fin 1) p q))
  refine (Cert.Moe.pay_eq_mlp (((cfg0.win 0).blk t).view.read (Elt Ideal) A0) (((cfg0.win 1).blk t).view.read (Elt Ideal) A1)
    (((cfg0.win 2).blk t).view.read (Elt Ideal) A2) A0 A1 A2 (ex t)
    (blk0_read A0 t) (blk1_read A1 t) (blk2_read A2 t) p q).trans ?_
  refine congrArg (Cert.Moe.mlp A0 A1 A2) ?_
  funext a
  apply Fin.ext
  match a with
  | ⟨0, _⟩ => show t.val = win0_3.index t (0 : Fin 3) * 1 + 1 * 0; omega
  | ⟨1, _⟩ => show p.val = win0_3.index t (1 : Fin 3) * 512 + 1 * p.val; omega
  | ⟨2, _⟩ => show q.val = win0_3.index t (2 : Fin 3) * 1024 + 1 * q.val; omega

/-- The MLP of the three arrays as the region finds them. -/
abbrev Y0 (c : Dev nD) : FVec Ideal Cert.ReferenceIdeal.S64x512x1024 .f32 :=
  Cert.Moe.mlp (V (F := Ideal) m c (Pipeline.arrRef spec0 0)) (V (F := Ideal) m c (Pipeline.arrRef spec0 1)) (V (F := Ideal) m c (Pipeline.arrRef spec0 2))

/-- The MLP of the dispatched rows as the region finds them and the two weight ARGUMENTS. -/
abbrev Y (c : Dev nD) : FVec Ideal Cert.ReferenceIdeal.S64x512x1024 .f32 :=
  Cert.Moe.mlp (V (F := Ideal) m c main_v24) (m ((c : Thread nD τ).loc main_arg3)) (m ((c : Thread nD τ).loc main_arg4))

theorem A0_eq (c : Dev nD) : (V (F := Ideal) m c (Pipeline.arrRef spec0 0) : S64x512x1024.Idx → EReal) = V (F := Ideal) m c main_v24 := rfl
theorem A1_eq (c : Dev nD) : (V (F := Ideal) m c (Pipeline.arrRef spec0 1) : S64x1024x1024.Idx → EReal) = m ((c : Thread nD τ).loc main_arg3) :=
  (rfl : (V (F := Ideal) m c (Pipeline.arrRef spec0 1) : S64x1024x1024.Idx → EReal) = V (F := Ideal) m c main_v25).trans (V_gu m c)
theorem A2_eq (c : Dev nD) : (V (F := Ideal) m c (Pipeline.arrRef spec0 2) : S64x1024x512.Idx → EReal) = m ((c : Thread nD τ).loc main_arg4) :=
  (rfl : (V (F := Ideal) m c (Pipeline.arrRef spec0 2) : S64x1024x512.Idx → EReal) = V (F := Ideal) m c main_v26).trans (V_dn m c)

/-- The two weight arrays the region stages are the weight arguments. -/
theorem Y0_eq (c : Dev nD) : Y0 m c = Y m c := by
  unfold Y0 Y
  rw [A0_eq, A1_eq, A2_eq]

/-- What point `t` writes back is expert `t`'s slab of the MLP. -/
theorem flushed_eq (c : Dev nD) (t : Fin cfg0.N) :
    (dats (F := Ideal) m 0 c).flushed 3 t = ((cfg0.win 3).blk t).view.read (Elt Ideal) (Y0 m c) := by
  show (cfg0.win 3).cut (grid0.coords t) ((dats m 0 c).after 3 t) = _
  rw [after0_3]
  unfold iblk
  exact point_eq _ _ _ t

/-- An index of the result array is in point `t`'s block iff each coordinate is in the block's range. -/
theorem mem_blk (t : Fin cfg0.N) (i : S64x512x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v27).slice (win0_3.rect t)).set ↔ _
  rw [View.set_slice_whole, Rect.mem_set_unit]
  exact Iff.rfl

/-- Row (e, c, h) of the result array is written by point e: the sixty-four slabs cover it. -/
theorem cover (i : S64x512x1024.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 1024 := (i 2).isLt
  have h64 := N64
  obtain ⟨t, et⟩ : ∃ t : Fin cfg0.N, t.val = (i 0).val := ⟨⟨(i 0).val, by omega⟩, rfl⟩
  obtain ⟨-, -, -, ⟨e0, e1, e2⟩⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The region's result array after the run: the MLP of the dispatched rows and the weight arguments. -/
theorem final (c : Dev nD) : (dats (F := Ideal) m 0 c).arrAt 3 cfg0.N = Y m c :=
  ((dats m 0 c).arrAt_eq_of_cover 3 (Y0 m c) (fun t _ => flushed_eq m c t) cover).trans (Y0_eq m c)

end Cert.Moe.K

end
-- ==== Proof.KTail.lean ====
/-
  What the operations after the region leave in the result: the region's array flattened to [64 * 512, 1024],
  row slot[p] gathered for each (token, choice) pair p, widened to f32 (the identity on extended reals), scaled
  by the pair's routing weight and summed over the eight choices of each token. That is the specification's
  `combine` of the region's array, the slots and the weights.
-/
import proofs.«128541_j11802570129921_2_alg».proof.Proof.Gen.KernelIdeal.Frame
import proofs.«128541_j11802570129921_2_alg».proof.Proof.Gen.ReferenceIdeal
import proofs.«128541_j11802570129921_2_alg».proof.Proof.MoeSpec
import Idealize.ShloMosaic.Lib.Pipeline.Value
import Idealize.ShloMosaic.Lib.StableHlo.Run

noncomputable section

namespace Cert.Moe.K

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- Widening the format does nothing to an array of extended reals. -/
theorem extf_id {s : Shape} {φ ψ : FTy} (x : FVec Ideal s φ) (h : φ.bits < ψ.bits) : (extf ψ x h : s.Idx → EReal) = x := rfl

/-- The two programs name one and the same gather of whole rows. -/
theorem gather_rows_eq : Cert.KernelIdeal.gather_S32768x1024_S8192x1_S8192x1024_1_0_n_n_0_1_11024
    = Cert.ReferenceIdeal.gather_S32768x1024_S8192x1_S8192x1024_1_0_n_n_0_1_11024 := rfl

/-- The program's result after the operations that follow the region is `combine` of the region's final array,
    the slots as the prefix left them, and the routing weights as launched. -/
theorem tail_eq (c : Dev nD) :
    (Pipeline.afterTail₀ cfgs (dats (F := Ideal) m) 0 (V0 m) [hostOps1] c main_v41 : S1024x1024.Idx → EReal)
      = Cert.Moe.combine ((dats (F := Ideal) m 0 c).arrAt 3 cfg0.N) (V (F := Ideal) m c main_v12) (m ((c : Thread nD τ).loc main_arg2)) := by
  unfold Pipeline.afterTail₀
  show StableHlo.after hostOps1 _ (Proc.devRef .tc main_v41) = _
  after_results_simp
  rw [Pipeline.withArrays_of_ne _ c (V0 m c) _ main_v12 (by exact (by decide : ∀ w, Pipeline.arrRef spec0 w ≠ main_v12)),
    Pipeline.withArrays_of_ne _ c (V0 m c) _ main_arg2 (by exact (by decide : ∀ w, Pipeline.arrRef spec0 w ≠ main_arg2)),
    show Pipeline.withArrays (cfgs 0).spec c (V0 m c) (fun w => (dats (F := Ideal) m 0 c).arrAt w (cfgs 0).N) (Proc.devRef .tc main_v27)
      = (dats (F := Ideal) m 0 c).arrAt 3 cfg0.N from Pipeline.withArrays_arr spec0 launch0.win.arr_inj c _ _ 3,
    show V0 m c (Proc.devRef .tc main_arg2) = m ((c : Thread nD τ).loc main_arg2) from V_main_arg2 m c]
  unfold Cert.Moe.combine
  simp only [extf_id]
  rw [gather_rows_eq]
  rfl

end Cert.Moe.K

end
-- ==== Proof.KRun.lean ====
/-
  The kernel program's run, read: every weakly fair execution terminates with the result array at
  `combine (mlp xd gate_up down) slot weights`, where xd and slot are what the program's prefix left and the
  three float arguments are as launched, and with the arguments unchanged.
-/
import proofs.«128541_j11802570129921_2_alg».proof.Proof.KRegion
import proofs.«128541_j11802570129921_2_alg».proof.Proof.KTail

noncomputable section

namespace Cert.Moe.K

open Idealize.ShloMosaic Idealize.ShloMosaic.TcCoe Idealize.SL.Sem
open Cert.KernelIdeal Cert.KernelIdeal.Gen

variable (m : (ℓ : Loc nD τ sig) → Buf (Elt Ideal) ℓ)

/-- The frame run re-posted with the result named. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v41)
        = Cert.Moe.combine (Y m c) (V (F := Ideal) m c main_v12) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v41 (Pipeline.mem_restRefs_of main_v41 (by decide) (by decide))).trans
        ((tail_eq m c).trans (congrArg (fun y => Cert.Moe.combine y (V (F := Ideal) m c main_v12) (m ((c.tc : Thread nD τ).loc main_arg2))) (final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Moe.K

end
-- ==== Proof.RefOps.lean ====
/-
  The reference program's @main as a straight line of host operations, the outlined functions' operations
  written at their call sites over each call's own buffers. The line is cut in two at the first contraction:
  the head computes the integer slots of the 8192 (token, choice) pairs and scatters the tokens' rows into the
  dispatched array; the rest is the per-expert gated MLP and the weighted gather-and-sum, that is, the two
  functions of MoeSpec.lean applied to what the head leaves.
-/
import proofs.«128541_j11802570129921_2_alg».proof.Proof.Gen.ReferenceIdeal
import Idealize.ShloMosaic.Lib.StableHlo.Run
import proofs.«128541_j11802570129921_2_alg».proof.Proof.MoeSpec

noncomputable section

namespace Cert.Moe.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- @main's operations from the reshape of the expert indices through the reshape of the scattered rows
    (58 operations: the one-hot table, its running count down the pairs, the count read back at each pair's own
    expert, the clamp, the slot `expert * 512 + position`, the rows repeated eight times and scattered). -/
abbrev headOps : List (HloOp τ sig (Elt F)) :=
  [ StableHlo.reshape main_arg1 main_v0 rfl shapeCasts_S1024x8_S8192,
    TRef.unary (.of main_v0 : TRef sig ⟨S8192, .i32⟩) main_call0.v0 (broadcastInDim S8192x1 ![0] bcast_S8192_S8192x1_0),
    TRef.nullary main_call0.v1 (iotaInDim S1x64 32 1),
    TRef.unary main_call0.v0 main_call0.v2 (broadcastInDim S8192x64 ![0, 1] bcast_S8192x1_S8192x64_0_1),
    TRef.unary main_call0.v1 main_call0.v3 (broadcastInDim S8192x64 ![0, 1] bcast_S1x64_S8192x64_0_1),
    TRef.binary main_call0.v2 main_call0.v3 main_call0.v4 (cmpi .eq),
    TRef.unary main_call0.v4 main_call0.v5 (extui 32 · natLt_1_32),
    TRef.nullary main_call1.call0.c (constantI S_ 32 0#32),
    TRef.unary main_call1.call0.c main_call1.call0.v0 (broadcastInDim S_ ![] bcast_S_S_),
    TRef.binary (.of main_v1 : TRef sig ⟨S8192x64, .i32⟩) main_call1.call0.v0 main_call1.call0.v1 (fun x v => Host.reduceWindow IntOp.addi ![8192, 1] ![1, 1] ![8191, 0] ![0, 0] x v reduceWindows_S8192x64_S8192x64_w8192s1p8191_0_w1s1p0_0 h_S_),
    StableHlo.nullary main_c (constantI S_ 32 1#32),
    StableHlo.unary main_c main_v3 (broadcastInDim S8192x64 ![] bcast_S_S8192x64 : (⟨S_, .i32⟩ : BufTy).Contents (Elt F) → (⟨S8192x64, .i32⟩ : BufTy).Contents (Elt F)),
    StableHlo.binary main_v2 main_v3 main_v4 (subi : (⟨S8192x64, .i32⟩ : BufTy).Contents (Elt F) → (⟨S8192x64, .i32⟩ : BufTy).Contents (Elt F) → (⟨S8192x64, .i32⟩ : BufTy).Contents (Elt F)),
    StableHlo.unary main_v0 main_v5 (broadcastInDim S8192x1 ![0] bcast_S8192_S8192x1_0 : (⟨S8192, .i32⟩ : BufTy).Contents (Elt F) → (⟨S8192x1, .i32⟩ : BufTy).Contents (Elt F)),
    TRef.nullary main_call2.c (constantI S_ 32 0#32),
    TRef.unary main_call2.c main_call2.v0 (broadcastInDim S8192x1 ![] bcast_S_S8192x1),
    TRef.binary (.of main_v5 : TRef sig ⟨S8192x1, .i32⟩) main_call2.v0 main_call2.v1 (cmpi .slt),
    TRef.nullary main_call2.c_0 (constantI S_ 32 64#32),
    TRef.unary main_call2.c_0 main_call2.v2 (broadcastInDim S8192x1 ![] bcast_S_S8192x1),
    TRef.binary (.of main_v5 : TRef sig ⟨S8192x1, .i32⟩) main_call2.v2 main_call2.v3 addi,
    TRef.ternary main_call2.v1 main_call2.v3 (.of main_v5 : TRef sig ⟨S8192x1, .i32⟩) main_call2.v4 select,
    TRef.reshape main_call2.v4 main_call2.v5 rfl shapeCasts_S8192x1_S8192x1x1,
    TRef.nullary main_call2.c_1 (constantI S1 32 63#32),
    TRef.nullary main_call2.c_2 (constantI S_ 32 0#32),
    TRef.unary main_call2.c_2 main_call2.v6 (broadcastInDim S8192x1x1 ![] bcast_S_S8192x1x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S8192x1x1 ![0, 1, 2] bcast_S1x1x1_S8192x1x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8192x1x1_S8192x1_d2 h_S_),
    TRef.binary (.of main_v4 : TRef sig ⟨S8192x64, .i32⟩) main_call2.v5 main_call2.v13 (fun x i => Host.gather gather_S8192x64_S8192x1x1_S8192x1_n_1_0_0_1_2_11 x i),
    TRef.nullary main_call2.c_4 (constantI S_ 32 2147483648#32),
    TRef.unary main_call2.c_4 main_call2.v14 (broadcastInDim S8192x1 ![] bcast_S_S8192x1),
    TRef.ternary main_call2.v12 main_call2.v13 main_call2.v14 main_call2.v15 select,
    StableHlo.reshape main_v6 main_v7 rfl shapeCasts_S8192x1_S8192,
    StableHlo.nullary main_c_0 (constantI S_ 32 511#32),
    StableHlo.unary main_c_0 main_v8 (broadcastInDim S8192 ![] bcast_S_S8192 : (⟨S_, .i32⟩ : BufTy).Contents (Elt F) → (⟨S8192, .i32⟩ : BufTy).Contents (Elt F)),
    StableHlo.binary main_v7 main_v8 main_v9 (minsi : (⟨S8192, .i32⟩ : BufTy).Contents (Elt F) → (⟨S8192, .i32⟩ : BufTy).Contents (Elt F) → (⟨S8192, .i32⟩ : BufTy).Contents (Elt F)),
    StableHlo.nullary main_c_1 (constantI S_ 32 512#32),
    StableHlo.unary main_c_1 main_v10 (broadcastInDim S8192 ![] bcast_S_S8192 : (⟨S_, .i32⟩ : BufTy).Contents (Elt F) → (⟨S8192, .i32⟩ : BufTy).Contents (Elt F)),
    StableHlo.binary main_v0 main_v10 main_v11 (muli : (⟨S8192, .i32⟩ : BufTy).Contents (Elt F) → (⟨S8192, .i32⟩ : BufTy).Contents (Elt F) → (⟨S8192, .i32⟩ : BufTy).Contents (Elt F)),
    StableHlo.binary main_v11 main_v9 main_v12 (addi : (⟨S8192, .i32⟩ : BufTy).Contents (Elt F) → (⟨S8192, .i32⟩ : BufTy).Contents (Elt F) → (⟨S8192, .i32⟩ : BufTy).Contents (Elt F)),
    StableHlo.unary main_arg0 main_v13 (broadcastInDim S1024x8x1024 ![0, 2] bcast_S1024x1024_S1024x8x1024_0_2 : (⟨S1024x1024, .f32⟩ : BufTy).Contents (Elt F) → (⟨S1024x8x1024, .f32⟩ : BufTy).Contents (Elt F)),
    StableHlo.reshape main_v13 main_v14 rfl shapeCasts_S1024x8x1024_S8192x1024,
    StableHlo.nullary main_cst (constant S_ .f32 0x00000000#32),
    StableHlo.unary main_cst main_v15 (broadcastInDim S32768x1024 ![] bcast_S_S32768x1024 : (⟨S_, .f32⟩ : BufTy).Contents (Elt F) → (⟨S32768x1024, .f32⟩ : BufTy).Contents (Elt F)),
    StableHlo.nullary main_c_2 (constantI S_ 32 0#32),
    StableHlo.unary main_c_2 main_v16 (broadcastInDim S8192 ![] bcast_S_S8192 : (⟨S_, .i32⟩ : BufTy).Contents (Elt F) → (⟨S8192, .i32⟩ : BufTy).Contents (Elt F)),
    StableHlo.binary main_v12 main_v16 main_v17 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 32768#32),
    StableHlo.unary main_c_3 main_v18 (broadcastInDim S8192 ![] bcast_S_S8192 : (⟨S_, .i32⟩ : BufTy).Contents (Elt F) → (⟨S8192, .i32⟩ : BufTy).Contents (Elt F)),
    StableHlo.binary main_v12 main_v18 main_v19 (addi : (⟨S8192, .i32⟩ : BufTy).Contents (Elt F) → (⟨S8192, .i32⟩ : BufTy).Contents (Elt F) → (⟨S8192, .i32⟩ : BufTy).Contents (Elt F)),
    StableHlo.ternary main_v17 main_v19 main_v12 main_v20 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v20 main_v21 (broadcastInDim S8192x1 ![0] bcast_S8192_S8192x1_0 : (⟨S8192, .i32⟩ : BufTy).Contents (Elt F) → (⟨S8192x1, .i32⟩ : BufTy).Contents (Elt F)),
    StableHlo.ternary main_v15 main_v21 main_v14 main_v22 ((fun x i u => Host.scatter scatter_S32768x1024_S8192x1_S8192x1024_1_0_0_1 (fun _ b => b) x i u) : (⟨S32768x1024, .f32⟩ : BufTy).Contents (Elt F) → (⟨S8192x1, .i32⟩ : BufTy).Contents (Elt F) → (⟨S8192x1024, .f32⟩ : BufTy).Contents (Elt F) → (⟨S32768x1024, .f32⟩ : BufTy).Contents (Elt F)),
    StableHlo.reshape main_v22 main_v23 rfl shapeCasts_S32768x1024_S64x512x1024 ]

/-- @main's operations from the first contraction to the result (30 operations: the gate/up contraction, its two
    halves, the SiLU of the first times the second, the down contraction, the rows gathered back by slot,
    weighted, and summed over the eight choices). -/
abbrev restOps : List (HloOp τ sig (Elt F)) :=
  [ StableHlo.binary main_v23 main_arg3 main_v24 ((fun l r => Host.dotGeneral dot_S64x512x1024_S64x1024x1024_S64x512x1024_2_2_1_1_0_0 none l r) : (⟨S64x512x1024, .f32⟩ : BufTy).Contents (Elt F) → (⟨S64x1024x1024, .f32⟩ : BufTy).Contents (Elt F) → (⟨S64x512x1024, .f32⟩ : BufTy).Contents (Elt F)),
    StableHlo.unary main_v24 main_v25 ((extractStridedSlice S64x512x512 ![0, 0, 0] · slices_S64x512x1024_S64x512x512_0_0_0) : (⟨S64x512x1024, .f32⟩ : BufTy).Contents (Elt F) → (⟨S64x512x512, .f32⟩ : BufTy).Contents (Elt F)),
    StableHlo.unary main_v24 main_v26 ((extractStridedSlice S64x512x512 ![0, 0, 512] · slices_S64x512x1024_S64x512x512_0_0_512) : (⟨S64x512x1024, .f32⟩ : BufTy).Contents (Elt F) → (⟨S64x512x512, .f32⟩ : BufTy).Contents (Elt F)),
    TRef.unary (.of main_v25 : TRef sig ⟨S64x512x512, .f32⟩) main_call3.v0 Host.negf,
    TRef.unary main_call3.v0 main_call3.v1 Host.exp,
    TRef.nullary main_call3.cst (constant S_ .f32 0x3F800000#32),
    TRef.unary main_call3.cst main_call3.v2 (broadcastInDim S64x512x512 ![] bcast_S_S64x512x512),
    TRef.binary main_call3.v2 main_call3.v1 main_call3.v3 addf,
    TRef.nullary main_call3.cst_0 (constant S_ .f32 0x3F800000#32),
    TRef.unary main_call3.cst_0 main_call3.v4 (broadcastInDim S64x512x512 ![] bcast_S_S64x512x512),
    TRef.binary main_call3.v4 main_call3.v3 main_call3.v5 Host.divf,
    TRef.binary (.of main_v25 : TRef sig ⟨S64x512x512, .f32⟩) main_call3.v5 main_call3.v6 mulf,
    StableHlo.binary main_v27 main_v26 main_v28 (mulf : (⟨S64x512x512, .f32⟩ : BufTy).Contents (Elt F) → (⟨S64x512x512, .f32⟩ : BufTy).Contents (Elt F) → (⟨S64x512x512, .f32⟩ : BufTy).Contents (Elt F)),
    StableHlo.binary main_v28 main_arg4 main_v29 ((fun l r => Host.dotGeneral dot_S64x512x512_S64x1024x512_S64x512x1024_2_2_1_1_0_0 none l r) : (⟨S64x512x512, .f32⟩ : BufTy).Contents (Elt F) → (⟨S64x1024x512, .f32⟩ : BufTy).Contents (Elt F) → (⟨S64x512x1024, .f32⟩ : BufTy).Contents (Elt F)),
    StableHlo.reshape main_v29 main_v30 rfl shapeCasts_S64x512x1024_S32768x1024,
    StableHlo.nullary main_c_4 (constantI S_ 32 0#32),
    StableHlo.unary main_c_4 main_v31 (broadcastInDim S8192 ![] bcast_S_S8192 : (⟨S_, .i32⟩ : BufTy).Contents (Elt F) → (⟨S8192, .i32⟩ : BufTy).Contents (Elt F)),
    StableHlo.binary main_v12 main_v31 main_v32 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 32768#32),
    StableHlo.unary main_c_5 main_v33 (broadcastInDim S8192 ![] bcast_S_S8192 : (⟨S_, .i32⟩ : BufTy).Contents (Elt F) → (⟨S8192, .i32⟩ : BufTy).Contents (Elt F)),
    StableHlo.binary main_v12 main_v33 main_v34 (addi : (⟨S8192, .i32⟩ : BufTy).Contents (Elt F) → (⟨S8192, .i32⟩ : BufTy).Contents (Elt F) → (⟨S8192, .i32⟩ : BufTy).Contents (Elt F)),
    StableHlo.ternary main_v32 main_v34 main_v12 main_v35 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v35 main_v36 (broadcastInDim S8192x1 ![0] bcast_S8192_S8192x1_0 : (⟨S8192, .i32⟩ : BufTy).Contents (Elt F) → (⟨S8192x1, .i32⟩ : BufTy).Contents (Elt F)),
    StableHlo.binary main_v30 main_v36 main_v37 ((fun x i => Host.gather gather_S32768x1024_S8192x1_S8192x1024_1_0_n_n_0_1_11024 x i) : (⟨S32768x1024, .f32⟩ : BufTy).Contents (Elt F) → (⟨S8192x1, .i32⟩ : BufTy).Contents (Elt F) → (⟨S8192x1024, .f32⟩ : BufTy).Contents (Elt F)),
    StableHlo.reshape main_arg2 main_v38 rfl shapeCasts_S1024x8_S8192x1,
    StableHlo.unary main_v38 main_v39 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v37 main_v39 main_v40 (mulf : (⟨S8192x1024, .f32⟩ : BufTy).Contents (Elt F) → (⟨S8192x1024, .f32⟩ : BufTy).Contents (Elt F) → (⟨S8192x1024, .f32⟩ : BufTy).Contents (Elt F)),
    StableHlo.reshape main_v40 main_v41 rfl shapeCasts_S8192x1024_S1024x8x1024,
    StableHlo.nullary main_cst_6 (constant S_ .f32 0x00000000#32),
    StableHlo.binary main_v41 main_cst_6 main_v42 ((fun x v => Host.reduceAdd x v reducesTo_S1024x8x1024_S1024x1024_d1 h_S_) : (⟨S1024x8x1024, .f32⟩ : BufTy).Contents (Elt F) → (⟨S_, .f32⟩ : BufTy).Contents (Elt F) → (⟨S1024x1024, .f32⟩ : BufTy).Contents (Elt F)) ]

end Cert.Moe.Ref

end
-- ==== Proof.RefRun.lean ====
/-
  The reference program's run. Every weakly fair execution of @main ends with each buffer at the fold of the
  line's operations over the launch contents; the fold of the second part of the line (from the first
  contraction on) at the result buffer is the gated MLP followed by the weighted gather-and-sum of MoeSpec.lean,
  applied to what the first part leaves in the dispatched array, the slots, the weights and the two weight
  tensors; and the five arguments pass through both parts unchanged.
-/
import proofs.«128541_j11802570129921_2_alg».proof.Proof.Gen.ReferenceIdeal
import Idealize.ShloMosaic.Lib.StableHlo.Run
import Idealize.ShloMosaic.Lib.Pipeline.Frame
import proofs.«128541_j11802570129921_2_alg».proof.Proof.MoeSpec
import proofs.«128541_j11802570129921_2_alg».proof.Proof.RefOps

noncomputable section

namespace Cert.Moe.Ref

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

-- both sides are trees of host steps; sequencing on such a tree is computed by grafting, so the two agree by
-- evaluation, a call's steps followed by the caller's continuation being the same tree as the steps in one line
set_option maxRecDepth 16384 in
/-- @main is that straight line: the outlined functions unfolded at their calls and the call records at their
    fields, both sides are one chain of host steps. -/
theorem main_eq (c : Dev nD) : main (F := F) c = seq (headOps ++ restOps) := rfl

theorem scopedRefs_eq : (Finset.univ.filter fun b : Ref sig .tc => b.isScoped) = ∅ := by decide
theorem scopedSems_eq : (Finset.univ.filter fun sm : SemLoc sig => sm.isScoped .tc) = ∅ := by decide

theorem head_sub : (headOps : List (HloOp τ sig (Elt F))).Forall fun op => op.bufs ⊆ tcRefs τ sig :=
  ⟨reshape_bufs_sub .., unary_bufs_sub .., nullary_bufs_sub .., unary_bufs_sub .., unary_bufs_sub .., binary_bufs_sub ..,
    unary_bufs_sub .., nullary_bufs_sub .., unary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub .., nullary_bufs_sub .., unary_bufs_sub .., binary_bufs_sub .., nullary_bufs_sub .., unary_bufs_sub ..,
    binary_bufs_sub .., binary_bufs_sub .., unary_bufs_sub .., reshape_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., reshape_bufs_sub ..⟩

theorem rest_sub : (restOps : List (HloOp τ sig (Elt F))).Forall fun op => op.bufs ⊆ tcRefs τ sig :=
  ⟨binary_bufs_sub .., unary_bufs_sub .., unary_bufs_sub .., unary_bufs_sub .., unary_bufs_sub .., nullary_bufs_sub ..,
    unary_bufs_sub .., binary_bufs_sub .., nullary_bufs_sub .., unary_bufs_sub .., binary_bufs_sub .., binary_bufs_sub ..,
    binary_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    reshape_bufs_sub .., unary_bufs_sub .., binary_bufs_sub .., reshape_bufs_sub .., nullary_bufs_sub .., binary_bufs_sub ..⟩

theorem ops_sub : (headOps ++ restOps : List (HloOp τ sig (Elt F))).Forall fun op => op.bufs ⊆ tcRefs τ sig :=
  List.forall_iff_forall_mem.2 fun op h => (List.mem_append.1 h).elim
    (List.forall_iff_forall_mem.1 head_sub op) (List.forall_iff_forall_mem.1 rest_sub op)

/-- No operation of the line leaves a result undetermined. -/
theorem head_fresh : ∀ op ∈ (headOps : List (HloOp τ sig (Elt F))), op.fresh = ∅ := by
  intro _ h; (repeat (cases h with | head => rfl | tail _ h => ?_)); exact nomatch h

theorem rest_fresh : ∀ op ∈ (restOps : List (HloOp τ sig (Elt F))), op.fresh = ∅ := by
  intro _ h; (repeat (cases h with | head => rfl | tail _ h => ?_)); exact nomatch h

/-- On every device, for any float values, from any memory with zero counters: every weakly fair execution of
    @main terminates, and every final state has each buffer at the fold of the whole line over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (headOps ++ restOps) (launchContents m c) (b : DevRef τ sig) :=
  run_seq scopedRefs_eq scopedSems_eq defs main (fun _ => headOps ++ restOps) main_eq (fun _ => ops_sub) m ρ
    (fun _ op h => (List.mem_append.1 h).elim (head_fresh op) (rest_fresh op))

/-- What the head leaves in every buffer. -/
abbrev headVal (m : (ℓ : Loc nD τ sig) → Buf (Elt F) ℓ) (c : Dev nD) : Valuation τ sig (Elt F) :=
  after headOps (launchContents m c)

set_option maxRecDepth 8192 in
/-- The second part of the line, read at the result buffer from any contents `W`: the gated MLP of the dispatched
    rows, then the weighted gather-and-sum. The fold is unrolled, each operation's result read at its own buffer
    and passed over at every other; what is left is the two specification functions' bodies, operation for
    operation. -/
theorem rest_eq (W : Valuation τ sig (Elt Ideal)) :
    after (restOps (F := Ideal)) W (main_v42 : DevRef τ sig)
      = Cert.Moe.combine (Cert.Moe.mlp (W (main_v23 : DevRef τ sig)) (W (main_arg3 : DevRef τ sig)) (W (main_arg4 : DevRef τ sig)))
          (W (main_v12 : DevRef τ sig)) (W (main_arg2 : DevRef τ sig)) := by
  after_results_simp
  rfl

/-! The five arguments pass through both parts of the line unchanged: no operation writes them. -/

theorem rest_arg0 (W : Valuation τ sig (Elt F)) :
    after (restOps (F := F)) W (main_arg0 : DevRef τ sig) = W (main_arg0 : DevRef τ sig) := by
  after_results_simp

theorem rest_arg1 (W : Valuation τ sig (Elt F)) :
    after (restOps (F := F)) W (main_arg1 : DevRef τ sig) = W (main_arg1 : DevRef τ sig) := by
  after_results_simp

theorem rest_arg2 (W : Valuation τ sig (Elt F)) :
    after (restOps (F := F)) W (main_arg2 : DevRef τ sig) = W (main_arg2 : DevRef τ sig) := by
  after_results_simp

theorem rest_arg3 (W : Valuation τ sig (Elt F)) :
    after (restOps (F := F)) W (main_arg3 : DevRef τ sig) = W (main_arg3 : DevRef τ sig) := by
  after_results_simp

theorem rest_arg4 (W : Valuation τ sig (Elt F)) :
    after (restOps (F := F)) W (main_arg4 : DevRef τ sig) = W (main_arg4 : DevRef τ sig) := by
  after_results_simp

theorem head_arg0 (m : (ℓ : Loc nD τ sig) → Buf (Elt F) ℓ) (c : Dev nD) :
    headVal m c (main_arg0 : DevRef τ sig) = m ((c.tc : Thread nD τ).loc main_arg0) := by
  show after headOps (launchContents m c) (main_arg0 : DevRef τ sig) = _
  after_results_simp

theorem head_arg1 (m : (ℓ : Loc nD τ sig) → Buf (Elt F) ℓ) (c : Dev nD) :
    headVal m c (main_arg1 : DevRef τ sig) = m ((c.tc : Thread nD τ).loc main_arg1) := by
  show after headOps (launchContents m c) (main_arg1 : DevRef τ sig) = _
  after_results_simp

theorem head_arg2 (m : (ℓ : Loc nD τ sig) → Buf (Elt F) ℓ) (c : Dev nD) :
    headVal m c (main_arg2 : DevRef τ sig) = m ((c.tc : Thread nD τ).loc main_arg2) := by
  show after headOps (launchContents m c) (main_arg2 : DevRef τ sig) = _
  after_results_simp

theorem head_arg3 (m : (ℓ : Loc nD τ sig) → Buf (Elt F) ℓ) (c : Dev nD) :
    headVal m c (main_arg3 : DevRef τ sig) = m ((c.tc : Thread nD τ).loc main_arg3) := by
  show after headOps (launchContents m c) (main_arg3 : DevRef τ sig) = _
  after_results_simp

theorem head_arg4 (m : (ℓ : Loc nD τ sig) → Buf (Elt F) ℓ) (c : Dev nD) :
    headVal m c (main_arg4 : DevRef τ sig) = m ((c.tc : Thread nD τ).loc main_arg4) := by
  show after headOps (launchContents m c) (main_arg4 : DevRef τ sig) = _
  after_results_simp

/-- On every device, from any memory with zero counters: every weakly fair execution of @main terminates with the
    result buffer at the specification's two stages applied to what the head leaves in the dispatched array and
    the slots, and with the five arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42)
        = Cert.Moe.combine (Cert.Moe.mlp (headVal m c (main_v23 : DevRef τ sig)) (m ((c.tc : Thread nD τ).loc main_arg3)) (m ((c.tc : Thread nD τ).loc main_arg4)))
            (headVal m c (main_v12 : DevRef τ sig)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    have e := rest_eq (headVal m c)
    rw [head_arg3, head_arg4, head_arg2] at e
    refine ⟨?_, ?_, ?_, ?_, ?_, ?_⟩
    · rw [h c main_v42, after_append]; exact e
    · rw [h c main_arg0, after_append, rest_arg0]; exact head_arg0 m c
    · rw [h c main_arg1, after_append, rest_arg1]; exact head_arg1 m c
    · rw [h c main_arg2, after_append, rest_arg2]; exact head_arg2 m c
    · rw [h c main_arg3, after_append, rest_arg3]; exact head_arg3 m c
    · rw [h c main_arg4, after_append, rest_arg4]; exact head_arg4 m c)
    (run_fold m ρ)

end Cert.Moe.Ref

end
-- ==== Proof.HeadAgree.lean ====
/-
  The two programs' prefixes compute the same things from the same arguments. Both turn the expert indices into
  slots by the same integer operations (the one-hot table, its running count down the 8192 pairs, the count read
  back at each pair's own expert, the clamp, expert * 512 + position), and both scatter the tokens' rows, each
  repeated eight times, into a zero-filled [64 * 512, 1024] array at those slots. The kernel's program rounds the
  rows to bf16 first and fills with the bf16 zero; on extended reals rounding is the identity and both zero
  patterns denote the real number 0, so the dispatched arrays are equal too.
-/
import proofs.«128541_j11802570129921_2_alg».proof.Proof.Gen.KernelIdeal.Frame
import proofs.«128541_j11802570129921_2_alg».proof.Proof.RefOps
import proofs.«128541_j11802570129921_2_alg».proof.Proof.KHost
import Idealize.ShloMosaic.Lib.StableHlo.Run
import Idealize.ShloMosaic.PureOps.IdealRules

noncomputable section

namespace Cert.Moe

open Idealize.ShloMosaic Idealize.ShloMosaic.TcCoe Idealize.SL.Sem Idealize.ShloMosaic.StableHlo

variable [Cert.KernelIdeal.Facts] [Cert.ReferenceIdeal.Facts]
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The bf16 zero and the f32 zero are both the real number 0. -/
theorem zero_bf16 : (constant (F := Ideal) Cert.KernelIdeal.S_ .bf16 0x0000#16 : Cert.KernelIdeal.S_.Idx → EReal)
    = constant (F := Ideal) Cert.ReferenceIdeal.S_ .f32 0x00000000#32 :=
  funext fun _ => (IdealRules.sign_bit.ideal_zero .bf16).trans (IdealRules.sign_bit.ideal_zero .f32).symm

/-- The slots the two programs compute from the same expert indices are the same integers. -/
theorem head_slot (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.after (Cert.Moe.Ref.headOps (F := Ideal)) (launchContents m' c) (Cert.ReferenceIdeal.main_v12 : DevRef Cert.ReferenceIdeal.τ Cert.ReferenceIdeal.sig) : Cert.ReferenceIdeal.S8192.Idx → BitVec 32)
      = Cert.KernelIdeal.Gen.V (F := Ideal) m c Cert.KernelIdeal.main_v12 := by
  have h1' : launchContents m' c (Proc.devRef .tc Cert.ReferenceIdeal.main_arg1) = m (c, Proc.devRef .tc Cert.KernelIdeal.main_arg1) := h1
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, List.flatten_cons, List.flatten_nil,
    List.append_nil, List.cons_append, List.nil_append]
  after_results_simp
  rw [h1']
  rfl

/-- The dispatched rows the two programs scatter from the same tokens at the same slots are the same array. -/
theorem head_xd (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.after (Cert.Moe.Ref.headOps (F := Ideal)) (launchContents m' c) (Cert.ReferenceIdeal.main_v23 : DevRef Cert.ReferenceIdeal.τ Cert.ReferenceIdeal.sig) : Cert.ReferenceIdeal.S64x512x1024.Idx → EReal)
      = Cert.KernelIdeal.Gen.V (F := Ideal) m c Cert.KernelIdeal.main_v24 := by
  have h0' : launchContents m' c (Proc.devRef .tc Cert.ReferenceIdeal.main_arg0) = m (c, Proc.devRef .tc Cert.KernelIdeal.main_arg0) := h0
  have h1' : launchContents m' c (Proc.devRef .tc Cert.ReferenceIdeal.main_arg1) = m (c, Proc.devRef .tc Cert.KernelIdeal.main_arg1) := h1
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, List.flatten_cons, List.flatten_nil,
    List.append_nil, List.cons_append, List.nil_append]
  after_results_simp
  rw [h0', h1']
  simp only [Cert.Moe.K.truncf_id, zero_bf16]
  rfl

end Cert.Moe

end
-- ==== Proof.lean ====
/-
  A mixture-of-experts layer against its reference, over the extended reals.

  Both programs turn the expert indices of the 8192 (token, choice) pairs into slots expert * 512 + position,
  scatter the tokens' rows into a zero-filled [64 * 512, 1024] array xd, apply to every expert's 512 rows the gated MLP
      yd[e,c,h] = Σ_i (g · (1 / (1 + exp (-g))) · u) · down[e,h,i],   g = Σ_k xd[e,c,k] · gate_up[e,i,k],
      u = Σ_k xd[e,c,k] · gate_up[e,512+i,k],
  gather row slot[p] back for every pair p, scale it by the pair's routing weight and sum the eight choices of each
  token. The kernel's program runs the MLP as a region over the sixty-four experts (two matrix products through
  transposed weights, the logistic function as one operation, roundings to bf16 that are the identity on extended
  reals); the reference runs it as two batched contractions with the logistic function spelt 1 / (1 + exp (-g)).

  The specification (MoeSpec) names the two float stages `mlp` and `combine`. The reference's run ends at
  `combine (mlp xd gate_up down) slot weights` with xd and slot what its own prefix computes (RefOps, RefRun). The
  kernel program's run ends at the same expression over ITS prefix's xd and slot: the region's array is `mlp`
  because every grid point writes its expert's slab of it (MlpContract, MlpBlock for one slab; KHost, KRegion for the
  slabs covering the array), and the operations after the region are `combine` (KTail, KRun). The two prefixes
  compute equal slots and equal dispatched rows from equal arguments (HeadAgree), which closes the claim. No
  algebraic law beyond re-indexing the contractions is used, and none needs the inputs finite.
-/
import proofs.«128541_j11802570129921_2_alg».proof.Defs
import proofs.«128541_j11802570129921_2_alg».proof.Proof.Gen.Kernel
import proofs.«128541_j11802570129921_2_alg».proof.Proof.Gen.Kernel.Skeleton
import proofs.«128541_j11802570129921_2_alg».proof.Proof.Gen.Kernel.Launch
import proofs.«128541_j11802570129921_2_alg».proof.Proof.Gen.Kernel.Points
import proofs.«128541_j11802570129921_2_alg».proof.Proof.Gen.Kernel.Frame
import proofs.«128541_j11802570129921_2_alg».proof.Proof.Gen.KernelIdeal
import proofs.«128541_j11802570129921_2_alg».proof.Proof.Gen.KernelIdeal.Skeleton
import proofs.«128541_j11802570129921_2_alg».proof.Proof.Gen.KernelIdeal.Launch
import proofs.«128541_j11802570129921_2_alg».proof.Proof.Gen.KernelIdeal.Points
import proofs.«128541_j11802570129921_2_alg».proof.Proof.Gen.KernelIdeal.Frame
import proofs.«128541_j11802570129921_2_alg».proof.Proof.Gen.ReferenceIdeal
import proofs.«128541_j11802570129921_2_alg».proof.Proof.Gen.Pre_finite_inputs
import proofs.«128541_j11802570129921_2_alg».proof.Proof.KRun
import proofs.«128541_j11802570129921_2_alg».proof.Proof.RefRun
import proofs.«128541_j11802570129921_2_alg».proof.Proof.HeadAgree
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Moe.Ref.run m ρ)

/-- Both runs end at `combine (mlp xd gate_up down) slot weights`; the prefixes' xd and slot agree. -/
theorem algebraic : Cert.algebraic_KernelIdeal_ReferenceIdeal := by
  intro m ρ m' ρ' _ hagree
  refine ⟨fun c => Cert.Moe.combine (Cert.Moe.K.Y m c) (Cert.KernelIdeal.Gen.V (F := Ideal) m c Cert.KernelIdeal.main_v12)
      (m ((c.tc : Thread Cert.KernelIdeal.nD Cert.KernelIdeal.τ).loc Cert.KernelIdeal.main_arg2)), Cert.Moe.K.run m ρ, ?_⟩
  refine (θ_run Cert.ReferenceIdeal.defs _ _).mono (fun _ h c => ⟨(h c).1.trans ?_, (h c).2⟩) (Cert.Moe.Ref.run m' ρ')
  obtain ⟨h0, h1, h2, h3, h4⟩ := hagree c
  have hx := Cert.Moe.head_xd m m' c h0 h1
  have hs := Cert.Moe.head_slot m m' c h1
  show Cert.Moe.combine (Cert.Moe.mlp
        (StableHlo.after (Cert.Moe.Ref.headOps (F := Ideal)) (launchContents m' c) (Cert.ReferenceIdeal.main_v23 : DevRef Cert.ReferenceIdeal.τ Cert.ReferenceIdeal.sig))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)))
      (StableHlo.after (Cert.Moe.Ref.headOps (F := Ideal)) (launchContents m' c) (Cert.ReferenceIdeal.main_v12 : DevRef Cert.ReferenceIdeal.τ Cert.ReferenceIdeal.sig))
      (m' ((c.tc : Thread Cert.ReferenceIdeal.nD Cert.ReferenceIdeal.τ).loc Cert.ReferenceIdeal.main_arg2)) = _
  rw [hx, hs, h2, h3, h4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
